-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x160x640 : Shape := ⟨3, ![4, 160, 640]⟩
abbrev S4x80x640 : Shape := ⟨3, ![4, 80, 640]⟩
abbrev S1280x640 : Shape := ⟨2, ![1280, 640]⟩
abbrev S640 : Shape := ⟨1, ![640]⟩
abbrev S640x1024 : Shape := ⟨2, ![640, 1024]⟩
abbrev S1024 : Shape := ⟨1, ![1024]⟩
abbrev S_ : Shape := ⟨0, ![]⟩

class Facts : Prop where
  bcast_S_S4x160x640 : S_.BroadcastsInDim S4x160x640 (![] : Fin 0 → Fin S4x160x640.rank)
  reducesTo_S4x160x640_S_d0_1_2 : S4x160x640.ReducesTo [0, 1, 2] S_
  h_S_ : 0 < S_.numel
  bcast_S_S4x80x640 : S_.BroadcastsInDim S4x80x640 (![] : Fin 0 → Fin S4x80x640.rank)
  reducesTo_S4x80x640_S_d0_1_2 : S4x80x640.ReducesTo [0, 1, 2] S_
  bcast_S_S1280x640 : S_.BroadcastsInDim S1280x640 (![] : Fin 0 → Fin S1280x640.rank)
  reducesTo_S1280x640_S_d0_1 : S1280x640.ReducesTo [0, 1] S_
  bcast_S_S640 : S_.BroadcastsInDim S640 (![] : Fin 0 → Fin S640.rank)
  reducesTo_S640_S_d0 : S640.ReducesTo [0] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S640x1024 .f32) (main_arg5 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x1024 .f32 := Host.absf main_arg4
  let main_cst_6 : FVec F S_ .f32 := constant S_ .f32 0x7F800000#32
  let main_v20 : FVec F S640x1024 .f32 := broadcastInDim S640x1024 ![] bcast_S_S640x1024 main_cst_6
  let main_v21 : IVec S640x1024 1 := cmpf .olt main_v19 main_v20
  let main_c_7 : IVec S_ 1 := constantI S_ 1 1#1
  let main_v22 : IVec S_ 1 := (fun x v => Host.reduce IntOp.andi x v reducesTo_S640x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x160x640 .f32) (main_arg1 : FVec F S4x80x640 .f32) (main_arg2 : FVec F S1280x640 .f32) (main_arg3 : FVec F S640 .f32) (main_arg4 : FVec F S640x1024 .f32) (main_arg5 : FVec F S1024 .f32) : IVec S_ 1 :=
  let main_v0 : FVec F S4x160x640 .f32 := Host.absf main_arg0
  let main_cst : FVec F S_ .f32 := constant S_ .f32 0x7F800000#32
  let main_v1 : FVec F S4x160x640 .f32 := broadcastInDim S4x160x640 ![] bcast_S_S4x160x640 main_cst
  let main_v2 : IVec S4x160x640 1 := cmpf .olt main_v0 main_v1
  let main_c : IVec S_ 1 := constantI S_ 1 1#1
  let main_v3 : IVec S_ 1 := (fun x v => Host.reduce IntOp.andi x v reducesTo_S4x160x640_S_d0_1_2 h_S_) main_v2 main_c
  let main_v4 : FVec F S4x80x640 .f32 := Host.absf main_arg1
  let main_cst_0 : FVec F S_ .f32 := constant S_ .f32 0x7F800000#32
  let main_v5 : FVec F S4x80x640 .f32 := broadcastInDim S4x80x640 ![] bcast_S_S4x80x640 main_cst_0
  let main_v6 : IVec S4x80x640 1 := cmpf .olt main_v4 main_v5
  let main_c_1 : IVec S_ 1 := constantI S_ 1 1#1
  let main_v7 : IVec S_ 1 := (fun x v => Host.reduce IntOp.andi x v reducesTo_S4x80x640_S_d0_1_2 h_S_) main_v6 main_c_1
  let main_v8 : IVec S_ 1 := andi main_v3 main_v7
  let main_v9 : FVec F S1280x640 .f32 := Host.absf main_arg2
  let main_cst_2 : FVec F S_ .f32 := constant S_ .f32 0x7F800000#32
  let main_v10 : FVec F S1280x640 .f32 := broadcastInDim S1280x640 ![] bcast_S_S1280x640 main_cst_2
  let main_v11 : IVec S1280x640 1 := cmpf .olt main_v9 main_v10
  let main_c_3 : IVec S_ 1 := constantI S_ 1 1#1
  let main_v12 : IVec S_ 1 := (fun x v => Host.reduce IntOp.andi x v reducesTo_S1280x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_v13 main_v16
-- ==== Kernel.lean ====
abbrev S4x160x640 : Shape := ⟨3, ![4, 160, 640]⟩
abbrev S4x80x640 : Shape := ⟨3, ![4, 80, 640]⟩
abbrev S1280x640 : Shape := ⟨2, ![1280, 640]⟩
abbrev S640 : Shape := ⟨1, ![640]⟩
abbrev S640x1024 : Shape := ⟨2, ![640, 1024]⟩
abbrev S1024 : Shape := ⟨1, ![1024]⟩
abbrev S640x640 : Shape := ⟨2, ![640, 640]⟩
abbrev S1x640 : Shape := ⟨2, ![1, 640]⟩
abbrev S1x1024 : Shape := ⟨2, ![1, 1024]⟩
abbrev S4x160x80x1024 : Shape := ⟨4, ![4, 160, 80, 1024]⟩
abbrev S1x32x640 : Shape := ⟨3, ![1, 32, 640]⟩
abbrev S1x80x640 : Shape := ⟨3, ![1, 80, 640]⟩
abbrev S1x32x80x1024 : Shape := ⟨4, ![1, 32, 80, 1024]⟩
abbrev S32x640 : Shape := ⟨2, ![32, 640]⟩
abbrev S80x640 : Shape := ⟨2, ![80, 640]⟩
abbrev S32x1x640 : Shape := ⟨3, ![32, 1, 640]⟩
abbrev S32x80x640 : Shape := ⟨3, ![32, 80, 640]⟩
abbrev S1x1x640 : Shape := ⟨3, ![1, 1, 640]⟩
abbrev S2560x640 : Shape := ⟨2, ![2560, 640]⟩
abbrev S2560x1024 : Shape := ⟨2, ![2560, 1024]⟩
abbrev S32x80x1024 : Shape := ⟨3, ![32, 80, 1024]⟩

abbrev nBuf : Space → Nat
  | .hbm => 16
  | .vmem => 11
  | .smem => 0
  | _ => 0

abbrev bufTy : (tb : Table) → Fin (tcTables nBuf tb) → BufTy
  | .hbm, ⟨0, _⟩ => ⟨S4x160x640, .f32⟩
  | .hbm, ⟨1, _⟩ => ⟨S4x80x640, .f32⟩
  | .hbm, ⟨2, _⟩ => ⟨S1280x640, .f32⟩
  | .hbm, ⟨3, _⟩ => ⟨S640, .f32⟩
  | .hbm, ⟨4, _⟩ => ⟨S640x1024, .f32⟩
  | .hbm, ⟨5, _⟩ => ⟨S1024, .f32⟩
  | .hbm, ⟨6, _⟩ => ⟨S4x160x640, .bf16⟩
  | .hbm, ⟨7, _⟩ => ⟨S4x80x640, .bf16⟩
  | .hbm, ⟨8, _⟩ => ⟨S640x640, .f32⟩
  | .hbm, ⟨9, _⟩ => ⟨S640x640, .bf16⟩
  | .hbm, ⟨10, _⟩ => ⟨S640x640, .f32⟩
  | .hbm, ⟨11, _⟩ => ⟨S640x640, .bf16⟩
  | .hbm, ⟨12, _⟩ => ⟨S640x1024, .bf16⟩
  | .hbm, ⟨13, _⟩ => ⟨S1x640, .f32⟩
  | .hbm, ⟨14, _⟩ => ⟨S1x1024, .f32⟩
  | .hbm, ⟨15, _⟩ => ⟨S4x160x80x1024, .f32⟩
  | .local _ .vmem, ⟨0, _⟩ => ⟨S1x32x640, .bf16⟩
  | .local _ .vmem, ⟨1, _⟩ => ⟨S1x32x640, .bf16⟩
  | .local _ .vmem, ⟨2, _⟩ => ⟨S1x80x640, .bf16⟩
  | .local _ .vmem, ⟨3, _⟩ => ⟨S1x80x640, .bf16⟩
  | .local _ .vmem, ⟨4, _⟩ => ⟨S640x640, .bf16⟩
  | .local _ .vmem, ⟨5, _⟩ => ⟨S640x640, .bf16⟩
  | .local _ .vmem, ⟨6, _⟩ => ⟨S1x640, .f32⟩
  | .local _ .vmem, ⟨7, _⟩ => ⟨S640x1024, .bf16⟩
  | .local _ .vmem, ⟨8, _⟩ => ⟨S1x1024, .f32⟩
  | .local _ .vmem, ⟨9, _⟩ => ⟨S1x32x80x1024, .f32⟩
  | .local _ .vmem, ⟨10, _⟩ => ⟨S1x32x80x1024, .f32⟩
  | _, _ => ⟨S4x160x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x80x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S640x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S640x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x80x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  slices_S1280x640_S640x640_0_0 : S1280x640.Slices ![0, 0] S640x640
  slices_S1280x640_S640x640_640_0 : S1280x640.Slices ![640, 0] S640x640
  shapeCasts_S640_S1x640 : S640.ShapeCasts S1x640
  shapeCasts_S1024_S1x1024 : S1024.ShapeCasts S1x1024
  inb_S1x32x640_S1x32x640_0_0_0 : ∀ a, (![0, 0, 0] : Fin 3 → Nat) a + S1x32x640.size a ≤ S1x32x640.size a
  h_S1x32x640 : 0 < S1x32x640.numel
  shapeCasts_S1x32x640_S32x640 : S1x32x640.ShapeCasts S32x640
  inb_S1x80x640_S1x80x640_0_0_0 : ∀ a, (![0, 0, 0] : Fin 3 → Nat) a + S1x80x640.size a ≤ S1x80x640.size a
  h_S1x80x640 : 0 < S1x80x640.numel
  shapeCasts_S1x80x640_S80x640 : S1x80x640.ShapeCasts S80x640
  inb_S640x640_S640x640_0_0 : ∀ a, (![0, 0] : Fin 2 → Nat) a + S640x640.size a ≤ S640x640.size a
  h_S640x640 : 0 < S640x640.numel
  shapeCasts_S640x640_S640x640 : S640x640.ShapeCasts S640x640
  inb_S1x640_S1x640_0_0 : ∀ a, (![0, 0] : Fin 2 → Nat) a + S1x640.size a ≤ S1x640.size a
  h_S1x640 : 0 < S1x640.numel
  shapeCasts_S1x640_S640 : S1x640.ShapeCasts S640
  shapeCasts_S32x640_S32x1x640 : S32x640.ShapeCasts S32x1x640
  shapeCasts_S80x640_S1x80x640 : S80x640.ShapeCasts S1x80x640
  broadcasts_S32x1x640_S32x80x640 : S32x1x640.Broadcasts S32x80x640
  broadcasts_S1x80x640_S32x80x640 : S1x80x640.Broadcasts S32x80x640
  shapeCasts_S640_S1x1x640 : S640.ShapeCasts S1x1x640
  broadcasts_S1x1x640_S32x80x640 : S1x1x640.Broadcasts S32x80x640
  shapeCasts_S32x80x640_S2560x640 : S32x80x640.ShapeCasts S2560x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  broadcasts_S1x1024_S2560x1024 : S1x1024.Broadcasts S2560x1024
  shapeCasts_S2560x1024_S32x80x1024 : S2560x1024.ShapeCasts S32x80x1024
  inb_S1x32x80x1024_S1x32x80x1024_0_0_0_0 : ∀ a, (![0, 0, 0, 0] : Fin 4 → Nat) a + S1x32x80x1024.size a ≤ S1x32x80x1024.size a
  h_S1x32x80x1024 : 0 < S1x32x80x1024.numel
  shapeCasts_S1x32x80x1024_S32x80x1024 : S1x32x80x1024.ShapeCasts S32x80x1024
  shapeCasts_S32x80x1024_S1x32x80x1024 : S32x80x1024.ShapeCasts S1x32x80x1024
  dot_S32x640_S640x640_S32x640_1_0_0_1_n_n_wf : DotDims.WF S32x640 S640x640 S32x640 [1] [0] [0] [1] [] []
  dot_S80x640_S640x640_S80x640_1_0_0_1_n_n_wf : DotDims.WF S80x640 S640x640 S80x640 [1] [0] [0] [1] [] []
  dot_S2560x640_S640x1024_S2560x1024_1_0_0_1_n_n_wf : DotDims.WF S2560x640 S640x1024 S2560x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x640.size a ≤ S4x160x640.size a
  hwx0_0 : ∀ i : grid0.Coords, EltTy.bits .bf16 = 32 ∨ (Rect.block (s := S4x160x640) S1x32x640.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x80x640.size a ≤ S4x80x640.size a
  hwx0_1 : ∀ i : grid0.Coords, EltTy.bits .bf16 = 32 ∨ (Rect.block (s := S4x80x640) S1x80x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x640.size a ≤ S640x640.size a
  hwx0_2 : ∀ i : grid0.Coords, EltTy.bits .bf16 = 32 ∨ (Rect.block (s := S640x640) S640x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640x640.size a ≤ S640x640.size a
  hwx0_3 : ∀ i : grid0.Coords, EltTy.bits .bf16 = 32 ∨ (Rect.block (s := S640x640) S640x640.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x640.size a ≤ S1x640.size a
  hwx0_4 : ∀ i : grid0.Coords, EltTy.bits .f32 = 32 ∨ (Rect.block (s := S1x640) S1x640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x1024.size a ≤ S640x1024.size a
  hwx0_5 : ∀ i : grid0.Coords, EltTy.bits .bf16 = 32 ∨ (Rect.block (s := S640x1024) S640x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x80x1024.size a ≤ S4x160x80x1024.size a
  hwx0_7 : ∀ i : grid0.Coords, EltTy.bits .f32 = 32 ∨ (Rect.block (s := S4x160x80x1024) S1x32x80x1024.size (cc0_transform_7 i) (hinb0_7 i)).WholeWords (EltTy.packing .f32)

variable [Facts₀]

def dot_S32x640_S640x640_S32x640_1_0_0_1_n_n : DotDims S32x640 S640x640 S32x640 where
  lhsContracting := [1]
  rhsContracting := [0]
  lhsNonContracting := [0]
  rhsNonContracting := [1]
  lhsBatch := []
  rhsBatch := []
  wf := dot_S32x640_S640x640_S32x640_1_0_0_1_n_n_wf
def dot_S80x640_S640x640_S80x640_1_0_0_1_n_n : DotDims S80x640 S640x640 S80x640 where
  lhsContracting := [1]
  rhsContracting := [0]
  lhsNonContracting := [0]
  rhsNonContracting := [1]
  lhsBatch := []
  rhsBatch := []
  wf := dot_S80x640_S640x640_S80x640_1_0_0_1_n_n_wf
def dot_S2560x640_S640x1024_S2560x1024_1_0_0_1_n_n : DotDims S2560x640 S640x1024 S2560x1024 where
  lhsContracting := [1]
  rhsContracting := [0]
  lhsNonContracting := [0]
  rhsNonContracting := [1]
  lhsBatch := []
  rhsBatch := []
  wf := dot_S2560x640_S640x1024_S2560x1024_1_0_0_1_n_n_wf

abbrev win0_0 : Pipeline.Window sig grid0 :=
  Pipeline.Window.ofSpec (Memref.whole main_v0) S1x32x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x80x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S640x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S640x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S640x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x32x80x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x160x640 : Shape := ⟨3, ![4, 160, 640]⟩
abbrev S4x80x640 : Shape := ⟨3, ![4, 80, 640]⟩
abbrev S1280x640 : Shape := ⟨2, ![1280, 640]⟩
abbrev S640 : Shape := ⟨1, ![640]⟩
abbrev S640x1024 : Shape := ⟨2, ![640, 1024]⟩
abbrev S1024 : Shape := ⟨1, ![1024]⟩
abbrev S640x640 : Shape := ⟨2, ![640, 640]⟩
abbrev S4x160x1x640 : Shape := ⟨4, ![4, 160, 1, 640]⟩
abbrev S4x1x80x640 : Shape := ⟨4, ![4, 1, 80, 640]⟩
abbrev S4x160x80x640 : Shape := ⟨4, ![4, 160, 80, 640]⟩
abbrev S1x1x1x640 : Shape := ⟨4, ![1, 1, 1, 640]⟩
abbrev S4x160x80x1024 : Shape := ⟨4, ![4, 160, 80, 1024]⟩
abbrev S1x1x1x1024 : Shape := ⟨4, ![1, 1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x160x640, .f32⟩
  | .hbm, ⟨1, _⟩ => ⟨S4x80x640, .f32⟩
  | .hbm, ⟨2, _⟩ => ⟨S1280x640, .f32⟩
  | .hbm, ⟨3, _⟩ => ⟨S640, .f32⟩
  | .hbm, ⟨4, _⟩ => ⟨S640x1024, .f32⟩
  | .hbm, ⟨5, _⟩ => ⟨S1024, .f32⟩
  | .hbm, ⟨6, _⟩ => ⟨S640x640, .f32⟩
  | .hbm, ⟨7, _⟩ => ⟨S640x640, .f32⟩
  | .hbm, ⟨8, _⟩ => ⟨S4x160x640, .f32⟩
  | .hbm, ⟨9, _⟩ => ⟨S4x80x640, .f32⟩
  | .hbm, ⟨10, _⟩ => ⟨S4x160x1x640, .f32⟩
  | .hbm, ⟨11, _⟩ => ⟨S4x1x80x640, .f32⟩
  | .hbm, ⟨12, _⟩ => ⟨S4x160x80x640, .f32⟩
  | .hbm, ⟨13, _⟩ => ⟨S4x160x80x640, .f32⟩
  | .hbm, ⟨14, _⟩ => ⟨S4x160x80x640, .f32⟩
  | .hbm, ⟨15, _⟩ => ⟨S1x1x1x640, .f32⟩
  | .hbm, ⟨16, _⟩ => ⟨S4x160x80x640, .f32⟩
  | .hbm, ⟨17, _⟩ => ⟨S4x160x80x640, .f32⟩
  | .hbm, ⟨18, _⟩ => ⟨S4x160x80x640, .f32⟩
  | .hbm, ⟨19, _⟩ => ⟨S4x160x80x1024, .f32⟩
  | .hbm, ⟨20, _⟩ => ⟨S1x1x1x1024, .f32⟩
  | .hbm, ⟨21, _⟩ => ⟨S4x160x80x1024, .f32⟩
  | .hbm, ⟨22, _⟩ => ⟨S4x160x80x1024, .f32⟩
  | _, _ => ⟨S4x160x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S1280x640_S640x640_0_0 : S1280x640.Slices ![0, 0] S640x640
  slices_S1280x640_S640x640_640_0 : S1280x640.Slices ![640, 0] S640x640
  bcast_S4x160x640_S4x160x1x640_0_1_3 : S4x160x640.BroadcastsInDim S4x160x1x640 (![0, 1, 3] : Fin 3 → Fin S4x160x1x640.rank)
  bcast_S4x80x640_S4x1x80x640_0_2_3 : S4x80x640.BroadcastsInDim S4x1x80x640 (![0, 2, 3] : Fin 3 → Fin S4x1x80x640.rank)
  bcast_S4x160x1x640_S4x160x80x640_0_1_2_3 : S4x160x1x640.BroadcastsInDim S4x160x80x640 (![0, 1, 2, 3] : Fin 4 → Fin S4x160x80x640.rank)
  bcast_S4x1x80x640_S4x160x80x640_0_1_2_3 : S4x1x80x640.BroadcastsInDim S4x160x80x640 (![0, 1, 2, 3] : Fin 4 → Fin S4x160x80x640.rank)
  bcast_S640_S1x1x1x640_3 : S640.BroadcastsInDim S1x1x1x640 (![3] : Fin 1 → Fin S1x1x1x640.rank)
  bcast_S1x1x1x640_S4x160x80x640_0_1_2_3 : S1x1x1x640.BroadcastsInDim S4x160x80x640 (![0, 1, 2, 3] : Fin 4 → Fin S4x160x80x640.rank)
  bcast_S1024_S1x1x1x1024_3 : S1024.BroadcastsInDim S1x1x1x1024 (![3] : Fin 1 → Fin S1x1x1x1024.rank)
  bcast_S1x1x1x1024_S4x160x80x1024_0_1_2_3 : S1x1x1x1024.BroadcastsInDim S4x160x80x1024 (![0, 1, 2, 3] : Fin 4 → Fin S4x160x80x1024.rank)
  dot_S4x160x640_S640x640_S4x160x640_2_0_01_1_n_n_wf : DotDims.WF S4x160x640 S640x640 S4x160x640 [2] [0] [0, 1] [1] [] []
  dot_S4x80x640_S640x640_S4x80x640_2_0_01_1_n_n_wf : DotDims.WF S4x80x640 S640x640 S4x80x640 [2] [0] [0, 1] [1] [] []
  dot_S4x160x80x640_S640x1024_S4x160x80x1024_3_0_012_1_n_n_wf : DotDims.WF S4x160x80x640 S640x1024 S4x160x80x1024 [3] [0] [0, 1, 2] [1] [] []

variable [Facts₀]

def dot_S4x160x640_S640x640_S4x160x640_2_0_01_1_n_n : DotDims S4x160x640 S640x640 S4x160x640 where
  lhsContracting := [2]
  rhsContracting := [0]
  lhsNonContracting := [0, 1]
  rhsNonContracting := [1]
  lhsBatch := []
  rhsBatch := []
  wf := dot_S4x160x640_S640x640_S4x160x640_2_0_01_1_n_n_wf
def dot_S4x80x640_S640x640_S4x80x640_2_0_01_1_n_n : DotDims S4x80x640 S640x640 S4x80x640 where
  lhsContracting := [2]
  rhsContracting := [0]
  lhsNonContracting := [0, 1]
  rhsNonContracting := [1]
  lhsBatch := []
  rhsBatch := []
  wf := dot_S4x80x640_S640x640_S4x80x640_2_0_01_1_n_n_wf
def dot_S4x160x80x640_S640x1024_S4x160x80x1024_3_0_012_1_n_n : DotDims S4x160x80x640 S640x1024 S4x160x80x1024 where
  lhsContracting := [3]
  rhsContracting := [0]
  lhsNonContracting := [0, 1, 2]
  rhsNonContracting := [1]
  lhsBatch := []
  rhsBatch := []
  wf := dot_S4x160x80x640_S640x1024_S4x160x80x1024_3_0_012_1_n_n_wf

class Facts : Prop extends Facts₀ where

variable [Facts]
-- ==== Proof.Matmuls.lean ====
/-
  THE BODY'S THREE MATRIX PRODUCTS, READ AT AN ENTRY.
  Each `tpu.matmul` of the body multiplies a matrix of rows by a matrix of columns along one contracted axis into a
  zero accumulator. On the extended reals its entry `(p, c)` is the plain sum over the contracted coordinate `k` of
  `l[p, k] · r[k, c]`: the accumulator's zero is the additive unit, and the contraction's one-axis index is its one
  coordinate.
-/
import proofs.«107440_j2757369004491_1_alg».proof.Proof.Gen.KernelIdeal
import Idealize.ShloMosaic.Lib.ValueIdx
import Idealize.ShloMosaic.PureOps.Ideal.Laws

noncomputable section

open scoped BigOperators

namespace Cert.Joint.Matmuls

open Cert.KernelIdeal Idealize.ShloMosaic Idealize.ShloMosaic.ValueIdx

/-- The encoder projection of a block of 32 time steps: entry `(p, h)` is `Σ_d l[p, d] · r[d, h]`. -/
theorem encDot_lhs0 (i : S32x640.Idx) (q : dot_S32x640_S640x640_S32x640_1_0_0_1_n_n.contr.Idx) : (dot_S32x640_S640x640_S32x640_1_0_0_1_n_n.lhsIdx i q 0).val = (i 0).val := by
  unfold DotDims.lhsIdx
  rw [dif_neg (show ¬(0 : Fin S32x640.rank) ∈ dot_S32x640_S640x640_S32x640_1_0_0_1_n_n.lhsBatch by decide), dif_pos (show (0 : Fin S32x640.rank) ∈ dot_S32x640_S640x640_S32x640_1_0_0_1_n_n.lhsNonContracting by decide)]
  rfl
theorem encDot_rhs1 (i : S32x640.Idx) (q : dot_S32x640_S640x640_S32x640_1_0_0_1_n_n.contr.Idx) : (dot_S32x640_S640x640_S32x640_1_0_0_1_n_n.rhsIdx i q 1).val = (i 1).val := by
  unfold DotDims.rhsIdx
  rw [dif_neg (show ¬(1 : Fin S640x640.rank) ∈ dot_S32x640_S640x640_S32x640_1_0_0_1_n_n.rhsBatch by decide), dif_pos (show (1 : Fin S640x640.rank) ∈ dot_S32x640_S640x640_S32x640_1_0_0_1_n_n.rhsNonContracting by decide)]
  rfl
theorem encDot_apply (l : FVec Ideal S32x640 .bf16) (r : FVec Ideal S640x640 .bf16) (p : Fin 32) (c : Fin 640) :
    matmul dot_S32x640_S640x640_S32x640_1_0_0_1_n_n none l r (constant (F := Ideal) S32x640 .f32 0x00000000#32) (ix2 p c)
      = ∑ k : Fin 640, l (ix2 p k) * r (ix2 k c) := by
  simp only [matmul]
  rw [Ideal.matmul_constant_zero_apply, ← Equiv.sum_comp (contrEquiv1 dot_S32x640_S640x640_S32x640_1_0_0_1_n_n 640 rfl rfl).symm]
  refine Finset.sum_congr rfl fun k _ => ?_
  have hk := contrEquiv1_symm_val dot_S32x640_S640x640_S32x640_1_0_0_1_n_n 640 rfl rfl k
  have el : dot_S32x640_S640x640_S32x640_1_0_0_1_n_n.lhsIdx (ix2 p c) ((contrEquiv1 dot_S32x640_S640x640_S32x640_1_0_0_1_n_n 640 rfl rfl).symm k) = ix2 p k := funext fun a => Fin.ext (by
    match a with
    | ⟨0, _⟩ => exact encDot_lhs0 _ _
    | ⟨1, _⟩ => exact (dot_S32x640_S640x640_S32x640_1_0_0_1_n_n.lhsIdx_val_of_single rfl _ _).trans hk)
  have er : dot_S32x640_S640x640_S32x640_1_0_0_1_n_n.rhsIdx (ix2 p c) ((contrEquiv1 dot_S32x640_S640x640_S32x640_1_0_0_1_n_n 640 rfl rfl).symm k) = ix2 k c := funext fun a => Fin.ext (by
    match a with
    | ⟨0, _⟩ => exact (dot_S32x640_S640x640_S32x640_1_0_0_1_n_n.rhsIdx_val_of_single rfl _ _).trans hk
    | ⟨1, _⟩ => exact encDot_rhs1 _ _)
  rw [el, er]

/-- The decoder projection of the 80 label positions: entry `(u, h)` is `Σ_d l[u, d] · r[d, h]`. -/
theorem decDot_lhs0 (i : S80x640.Idx) (q : dot_S80x640_S640x640_S80x640_1_0_0_1_n_n.contr.Idx) : (dot_S80x640_S640x640_S80x640_1_0_0_1_n_n.lhsIdx i q 0).val = (i 0).val := by
  unfold DotDims.lhsIdx
  rw [dif_neg (show ¬(0 : Fin S80x640.rank) ∈ dot_S80x640_S640x640_S80x640_1_0_0_1_n_n.lhsBatch by decide), dif_pos (show (0 : Fin S80x640.rank) ∈ dot_S80x640_S640x640_S80x640_1_0_0_1_n_n.lhsNonContracting by decide)]
  rfl
theorem decDot_rhs1 (i : S80x640.Idx) (q : dot_S80x640_S640x640_S80x640_1_0_0_1_n_n.contr.Idx) : (dot_S80x640_S640x640_S80x640_1_0_0_1_n_n.rhsIdx i q 1).val = (i 1).val := by
  unfold DotDims.rhsIdx
  rw [dif_neg (show ¬(1 : Fin S640x640.rank) ∈ dot_S80x640_S640x640_S80x640_1_0_0_1_n_n.rhsBatch by decide), dif_pos (show (1 : Fin S640x640.rank) ∈ dot_S80x640_S640x640_S80x640_1_0_0_1_n_n.rhsNonContracting by decide)]
  rfl
theorem decDot_apply (l : FVec Ideal S80x640 .bf16) (r : FVec Ideal S640x640 .bf16) (p : Fin 80) (c : Fin 640) :
    matmul dot_S80x640_S640x640_S80x640_1_0_0_1_n_n none l r (constant (F := Ideal) S80x640 .f32 0x00000000#32) (ix2 p c)
      = ∑ k : Fin 640, l (ix2 p k) * r (ix2 k c) := by
  simp only [matmul]
  rw [Ideal.matmul_constant_zero_apply, ← Equiv.sum_comp (contrEquiv1 dot_S80x640_S640x640_S80x640_1_0_0_1_n_n 640 rfl rfl).symm]
  refine Finset.sum_congr rfl fun k _ => ?_
  have hk := contrEquiv1_symm_val dot_S80x640_S640x640_S80x640_1_0_0_1_n_n 640 rfl rfl k
  have el : dot_S80x640_S640x640_S80x640_1_0_0_1_n_n.lhsIdx (ix2 p c) ((contrEquiv1 dot_S80x640_S640x640_S80x640_1_0_0_1_n_n 640 rfl rfl).symm k) = ix2 p k := funext fun a => Fin.ext (by
    match a with
    | ⟨0, _⟩ => exact decDot_lhs0 _ _
    | ⟨1, _⟩ => exact (dot_S80x640_S640x640_S80x640_1_0_0_1_n_n.lhsIdx_val_of_single rfl _ _).trans hk)
  have er : dot_S80x640_S640x640_S80x640_1_0_0_1_n_n.rhsIdx (ix2 p c) ((contrEquiv1 dot_S80x640_S640x640_S80x640_1_0_0_1_n_n 640 rfl rfl).symm k) = ix2 k c := funext fun a => Fin.ext (by
    match a with
    | ⟨0, _⟩ => exact (dot_S80x640_S640x640_S80x640_1_0_0_1_n_n.rhsIdx_val_of_single rfl _ _).trans hk
    | ⟨1, _⟩ => exact decDot_rhs1 _ _)
  rw [el, er]

/-- The output projection of the 2560 flattened lattice points: entry `(r, v)` is `Σ_h l[r, h] · w[h, v]`. -/
theorem outDot_lhs0 (i : S2560x1024.Idx) (q : dot_S2560x640_S640x1024_S2560x1024_1_0_0_1_n_n.contr.Idx) : (dot_S2560x640_S640x1024_S2560x1024_1_0_0_1_n_n.lhsIdx i q 0).val = (i 0).val := by
  unfold DotDims.lhsIdx
  rw [dif_neg (show ¬(0 : Fin S2560x640.rank) ∈ dot_S2560x640_S640x1024_S2560x1024_1_0_0_1_n_n.lhsBatch by decide), dif_pos (show (0 : Fin S2560x640.rank) ∈ dot_S2560x640_S640x1024_S2560x1024_1_0_0_1_n_n.lhsNonContracting by decide)]
  rfl
theorem outDot_rhs1 (i : S2560x1024.Idx) (q : dot_S2560x640_S640x1024_S2560x1024_1_0_0_1_n_n.contr.Idx) : (dot_S2560x640_S640x1024_S2560x1024_1_0_0_1_n_n.rhsIdx i q 1).val = (i 1).val := by
  unfold DotDims.rhsIdx
  rw [dif_neg (show ¬(1 : Fin S640x1024.rank) ∈ dot_S2560x640_S640x1024_S2560x1024_1_0_0_1_n_n.rhsBatch by decide), dif_pos (show (1 : Fin S640x1024.rank) ∈ dot_S2560x640_S640x1024_S2560x1024_1_0_0_1_n_n.rhsNonContracting by decide)]
  rfl
theorem outDot_apply (l : FVec Ideal S2560x640 .bf16) (r : FVec Ideal S640x1024 .bf16) (p : Fin 2560) (c : Fin 1024) :
    matmul dot_S2560x640_S640x1024_S2560x1024_1_0_0_1_n_n none l r (constant (F := Ideal) S2560x1024 .f32 0x00000000#32) (ix2 p c)
      = ∑ k : Fin 640, l (ix2 p k) * r (ix2 k c) := by
  simp only [matmul]
  rw [Ideal.matmul_constant_zero_apply, ← Equiv.sum_comp (contrEquiv1 dot_S2560x640_S640x1024_S2560x1024_1_0_0_1_n_n 640 rfl rfl).symm]
  refine Finset.sum_congr rfl fun k _ => ?_
  have hk := contrEquiv1_symm_val dot_S2560x640_S640x1024_S2560x1024_1_0_0_1_n_n 640 rfl rfl k
  have el : dot_S2560x640_S640x1024_S2560x1024_1_0_0_1_n_n.lhsIdx (ix2 p c) ((contrEquiv1 dot_S2560x640_S640x1024_S2560x1024_1_0_0_1_n_n 640 rfl rfl).symm k) = ix2 p k := funext fun a => Fin.ext (by
    match a with
    | ⟨0, _⟩ => exact outDot_lhs0 _ _
    | ⟨1, _⟩ => exact (dot_S2560x640_S640x1024_S2560x1024_1_0_0_1_n_n.lhsIdx_val_of_single rfl _ _).trans hk)
  have er : dot_S2560x640_S640x1024_S2560x1024_1_0_0_1_n_n.rhsIdx (ix2 p c) ((contrEquiv1 dot_S2560x640_S640x1024_S2560x1024_1_0_0_1_n_n 640 rfl rfl).symm k) = ix2 k c := funext fun a => Fin.ext (by
    match a with
    | ⟨0, _⟩ => exact (dot_S2560x640_S640x1024_S2560x1024_1_0_0_1_n_n.rhsIdx_val_of_single rfl _ _).trans hk
    | ⟨1, _⟩ => exact outDot_rhs1 _ _)
  rw [el, er]

end Cert.Joint.Matmuls

end
-- ==== Proof.LibKeepdims.lean ====
/-
  LAYOUT OPERATIONS THAT INSERT, REPEAT OR MERGE AXES, READ AT AN INDEX GIVEN BY COORDINATES.
  A value kept with a unit axis (a matrix `[a, c]` viewed `[a, 1, c]`, a vector `[c]` viewed `[1, 1, c]`), a value
  repeated along unit axes up to rank 3, and the two reshapes that merge the two leading axes of a rank-3 array into one
  or split them again: each read at an index written by its coordinates as the operand at the index the operation's
  definition names, with the coordinate arithmetic discharged. The side-condition proof of every operation is an
  argument of arbitrary proof term, so a lemma applies whatever proof a term carries.
-/
import Idealize.ShloMosaic.Lib.ValueIdx
import Idealize.ShloMosaic.Lib.Pipeline.Value
import Idealize.ShloMosaic.Lib.ValueLayout

noncomputable section

namespace Cert.LibKeepdims

open Idealize.ShloMosaic Idealize.ShloMosaic.ValueIdx

variable {α : Type}

/-! ## A unit axis inserted by a shape cast -/

/-- A matrix `[a, c]` cast to `[a, 1, c]` reads, at `(p, z, k)`, the matrix at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (k : Fin c) :
    shapeCast ⟨3, ![a, 1, c]⟩ x h (ix3 p z k) = x (ix2 p k) :=
  shapeCast_apply x h _ _ (by
    have hz : z.val = 0 := by omega
    rw [Shape.rowMajor_val_three, Shape.rowMajor_val_two]
    show p.val * c + k.val = (p.val * 1 + z.val) * c + k.val
    rw [hz, Nat.mul_one, Nat.add_zero])

/-- A vector `[c]` cast to `[1, 1, c]` reads, at `(y, z, k)`, the vector at `k`. -/
theorem shapeCast_c_11c_apply {c : ℕ} (x : (⟨1, ![c]⟩ : Shape).Idx → α)
    (h : (⟨1, ![c]⟩ : Shape).ShapeCasts ⟨3, ![1, 1, c]⟩) (y z : Fin 1) (k : Fin c) :
    shapeCast ⟨3, ![1, 1, c]⟩ x h (ix3 y z k) = x (ix1 k) :=
  shapeCast_apply x h _ _ (by
    have hy : y.val = 0 := by omega
    have hz : z.val = 0 := by omega
    rw [Shape.rowMajor_val_three, Shape.rowMajor_val_one]
    show k.val = (y.val * 1 + z.val) * c + k.val
    rw [hy, hz]
    simp)

/-! ## A value repeated along unit axes, up to rank 3 -/

/-- `[a, 1, c]` repeated along its middle axis to `[a, b, c]` reads, at `(p, u, k)`, the operand at `(p, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (u : Fin b) (k : Fin c) :
    broadcastTo ⟨3, ![a, b, c]⟩ x h (ix3 p u k) = x (ix3 p (0 : Fin 1) k) := by
  refine broadcastTo_apply x h (ix3 p u k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- `[1, b, c]` repeated along its leading axis to `[a, b, c]` reads, at `(p, u, k)`, the operand at `(0, u, k)`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (u : Fin b) (k : Fin c) :
    broadcastTo ⟨3, ![a, b, c]⟩ x h (ix3 p u k) = x (ix3 (0 : Fin 1) u k) := by
  refine broadcastTo_apply x h (ix3 p u k) (ix3 (0 : Fin 1) u k) fun ax => ?_
  match ax with
  | ⟨0, _⟩ => rfl
  | ⟨1, _⟩ =>
    show u.val = if b = 1 then 0 else u.val
    split
    · have := u.isLt; omega
    · rfl
  | ⟨2, _⟩ =>
    show k.val = if c = 1 then 0 else k.val
    split
    · have := k.isLt; omega
    · rfl

/-- `[1, 1, c]` repeated along both leading axes to `[a, b, c]` reads, at `(p, u, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (u : Fin b) (k : Fin c) :
    broadcastTo ⟨3, ![a, b, c]⟩ x h (ix3 p u k) = x (ix3 (0 : Fin 1) (0 : Fin 1) k) := by
  refine broadcastTo_apply x h (ix3 p u k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## The two leading axes merged into one, and split again -/

/-- `[a, b, c]` with its two leading axes merged, `[n, c]` with `n = a b`, reads, at `(r, k)` with `r = p b + u`,
    the operand at `(p, u, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (u : Fin b) (k : Fin c) (r : Fin n)
    (hr : r.val = p.val * b + u.val) :
    shapeCast ⟨2, ![n, c]⟩ x h (ix2 r k) = x (ix3 p u k) :=
  shapeCast_apply x h _ _ (by
    rw [Shape.rowMajor_val_three, Shape.rowMajor_val_two]
    show (p.val * b + u.val) * c + k.val = r.val * c + k.val
    rw [hr])

/-- `[n, c]` with its leading axis split in two, `[a, b, c]` with `n = a b`, reads, at `(p, u, k)`, the operand at
    `(r, k)` with `r = p b + u`. -/
theorem shapeCast_nc_abc_apply {a b c n : ℕ} (x : (⟨2, ![n, c]⟩ : Shape).Idx → α)
    (h : (⟨2, ![n, c]⟩ : Shape).ShapeCasts ⟨3, ![a, b, c]⟩) (p : Fin a) (u : Fin b) (k : Fin c) (r : Fin n)
    (hr : r.val = p.val * b + u.val) :
    shapeCast ⟨3, ![a, b, c]⟩ x h (ix3 p u k) = x (ix2 r k) :=
  shapeCast_apply x h _ _ (by
    rw [Shape.rowMajor_val_three, Shape.rowMajor_val_two]
    show r.val * c + k.val = (p.val * b + u.val) * c + k.val
    rw [hr])

end Cert.LibKeepdims

end
-- ==== Proof.Payload.lean ====
/-
  THE BODY'S ARITHMETIC AT ONE ENTRY OF ITS OUTPUT BLOCK.
  At a grid point the body loads a block of 32 encoder time steps, the 80 decoder positions of one batch element, the
  two halves of the first weight matrix, its bias, the second weight matrix and its bias, and stores a block
  `[1, 32, 80, 1024]`. Entry `(0, p, u, v)` of what it stores is

      Σ_h tanh ((Σ_d e[0, p, d] · w1e[d, h]) + (Σ_d g[0, u, d] · w1d[d, h]) + b1[0, h]) · w2[h, v]  +  b2[0, v]

  on the extended reals: the body flattens the `32 × 80` lattice of the block to `2560` rows for its last product and
  splits it again, and row `80 p + u` of the flattened hidden activations is lattice point `(p, u)`; the two projections
  reach the lattice by repeating one along `u` and the other along `p`; the narrowing of the hidden activations to a
  shorter float format is the identity on the extended reals.
-/
import proofs.«107440_j2757369004491_1_alg».proof.Proof.Gen.KernelIdeal.Skeleton
import proofs.«107440_j2757369004491_1_alg».proof.Proof.Matmuls
import proofs.«107440_j2757369004491_1_alg».proof.Proof.LibKeepdims
import Idealize.ShloMosaic.Lib.ValueLayout

noncomputable section

open scoped BigOperators

namespace Cert.Joint.Payload

open Cert.KernelIdeal Cert.KernelIdeal.Gen Idealize.ShloMosaic Idealize.ShloMosaic.ValueIdx Cert.LibKeepdims
  Cert.Joint.Matmuls

/-- Lattice point `(p, u)` of a block is row `80 p + u` of the flattened block. -/
def row (p : Fin 32) (u : Fin 80) : Fin 2560 := ⟨p.val * 80 + u.val, by have := p.isLt; have := u.isLt; omega⟩

variable {α : Type}

/-- Row `80 p + u` of the flattened `[2560, c]` array is entry `(p, u)` of the `[32, 80, c]` array it flattens. -/
theorem flatten_apply {c : ℕ} (x : (⟨3, ![32, 80, c]⟩ : Shape).Idx → α)
    (h : (⟨3, ![32, 80, c]⟩ : Shape).ShapeCasts ⟨2, ![2560, c]⟩) (p : Fin 32) (u : Fin 80) (k : Fin c) :
    shapeCast ⟨2, ![2560, c]⟩ x h (ix2 (row p u) k) = x (ix3 p u k) :=
  shapeCast_abc_nc_apply x h p u k (row p u) rfl

/-- Entry `(p, u)` of the `[32, 80, c]` array split off a `[2560, c]` array is its row `80 p + u`. -/
theorem unflatten_apply {c : ℕ} (x : (⟨2, ![2560, c]⟩ : Shape).Idx → α)
    (h : (⟨2, ![2560, c]⟩ : Shape).ShapeCasts ⟨3, ![32, 80, c]⟩) (p : Fin 32) (u : Fin 80) (k : Fin c) :
    shapeCast ⟨3, ![32, 80, c]⟩ x h (ix3 p u k) = x (ix2 (row p u) k) :=
  shapeCast_nc_abc_apply x h p u k (row p u) rfl

/-- The vector `tanh` at an index is the extended reals' `tanh` of the entry. -/
theorem tanh_apply {s : Shape} {φ : FTy} (x : FVec Ideal s φ) (i : s.Idx) : tanh x i = Ideal.tanh (x i) := rfl

/-- ENTRY `(z, p, u, v)` OF THE STORED BLOCK, from the loaded blocks. -/
theorem payload_apply (e : Vec Ideal S1x32x640 .bf16) (g : Vec Ideal S1x80x640 .bf16) (w1e w1d : Vec Ideal S640x640 .bf16)
    (b1 : Vec Ideal S1x640 .f32) (w2 : Vec Ideal S640x1024 .bf16) (b2 : Vec Ideal S1x1024 .f32)
    (z : Fin 1) (p : Fin 32) (u : Fin 80) (v : Fin 1024) :
    k0_pay1 e g w1e w1d b1 w2 b2 (ix4 z p u v)
      = (∑ h : Fin 640, Ideal.tanh ((∑ d : Fin 640, e (ix3 (0 : Fin 1) p d) * w1e (ix2 d h))
            + (∑ d : Fin 640, g (ix3 (0 : Fin 1) u d) * w1d (ix2 d h)) + b1 (ix2 (0 : Fin 1) h)) * w2 (ix2 h v))
          + b2 (ix2 (0 : Fin 1) v) := by
  unfold k0_pay1
  simp only [shapeCast_abc_1abc_apply, unflatten_apply, addf_apply, outDot_apply, broadcastTo_1b_ab_apply,
    shapeCast_a_1a_apply, shapeCast_1a_a_apply, shapeCast_self, truncf_apply, flatten_apply, tanh_apply,
    broadcastTo_a1c_abc_apply, broadcastTo_1bc_abc_apply, broadcastTo_11c_abc_apply, shapeCast_ac_a1c_apply,
    shapeCast_ab_1ab_apply, shapeCast_c_11c_apply, encDot_apply, decDot_apply, shapeCast_1ab_ab_apply]

end Cert.Joint.Payload

end
-- ==== Proof.Spec.lean ====
/-
  THE JOINT NETWORK OF A TRANSDUCER, AS ONE FUNCTION OF ITS SIX ARGUMENT ARRAYS.
  Arguments: encoder states `enc[b, t, d]` (4 × 160 × 640), decoder states `dec[b, u, d]` (4 × 80 × 640), a first
  weight matrix `W1` (1280 × 640) whose rows 0 … 639 multiply the encoder state and rows 640 … 1279 the decoder state,
  its bias `b1` (640), a second weight matrix `W2` (640 × 1024) and its bias `b2` (1024). On the extended reals

    encProj[b, t, h] = Σ_d enc[b, t, d] · W1[d, h]                 decProj[b, u, h] = Σ_d dec[b, u, d] · W1[640 + d, h]
    hidden[b, t, u, h] = tanh (encProj[b, t, h] + decProj[b, u, h] + b1[h])
    logits[b, t, u, v] = Σ_h hidden[b, t, u, h] · W2[h, v] + b2[v]

  with the sums grouped exactly so: the two projections added first, the bias last. No law of the extended reals beyond
  re-indexing a finite sum is needed to meet either program, so nothing here asks the arguments to be finite.
-/
import Idealize.ShloMosaic.PureOps.Ideal
import Idealize.ShloMosaic.Lib.ValueIdx

noncomputable section

open scoped BigOperators

namespace Cert.Joint

open Idealize.ShloMosaic Idealize.ShloMosaic.ValueIdx

/-- Row `d` of the encoder half of the first weight matrix: row `d` itself. -/
abbrev encRow (d : Fin 640) : Fin 1280 := ⟨d.val, by have := d.isLt; omega⟩
/-- Row `d` of the decoder half of the first weight matrix: row `640 + d`. -/
abbrev decRow (d : Fin 640) : Fin 1280 := ⟨640 + d.val, by have := d.isLt; omega⟩

/-- The encoder state at `(b, t)` through the encoder half of `W1`, at hidden unit `h`. -/
def encProj (enc : FVec Ideal ⟨3, ![4, 160, 640]⟩ .f32) (W1 : FVec Ideal ⟨2, ![1280, 640]⟩ .f32)
    (b : Fin 4) (t : Fin 160) (h : Fin 640) : EReal :=
  ∑ d : Fin 640, enc (ix3 b t d) * W1 (ix2 (encRow d) h)

/-- The decoder state at `(b, u)` through the decoder half of `W1`, at hidden unit `h`. -/
def decProj (dec : FVec Ideal ⟨3, ![4, 80, 640]⟩ .f32) (W1 : FVec Ideal ⟨2, ![1280, 640]⟩ .f32)
    (b : Fin 4) (u : Fin 80) (h : Fin 640) : EReal :=
  ∑ d : Fin 640, dec (ix3 b u d) * W1 (ix2 (decRow d) h)

/-- The hidden activation at lattice point `(b, t, u)` and unit `h`: `tanh` of the two projections and the bias. -/
def hidden (enc : FVec Ideal ⟨3, ![4, 160, 640]⟩ .f32) (dec : FVec Ideal ⟨3, ![4, 80, 640]⟩ .f32)
    (W1 : FVec Ideal ⟨2, ![1280, 640]⟩ .f32) (b1 : FVec Ideal ⟨1, ![640]⟩ .f32)
    (b : Fin 4) (t : Fin 160) (u : Fin 80) (h : Fin 640) : EReal :=
  Ideal.tanh (encProj enc W1 b t h + decProj dec W1 b u h + b1 (ix1 h))

/-- The logits: the hidden activations through `W2`, plus its bias. -/
def logits (enc : FVec Ideal ⟨3, ![4, 160, 640]⟩ .f32) (dec : FVec Ideal ⟨3, ![4, 80, 640]⟩ .f32)
    (W1 : FVec Ideal ⟨2, ![1280, 640]⟩ .f32) (b1 : FVec Ideal ⟨1, ![640]⟩ .f32)
    (W2 : FVec Ideal ⟨2, ![640, 1024]⟩ .f32) (b2 : FVec Ideal ⟨1, ![1024]⟩ .f32) :
    FVec Ideal ⟨4, ![4, 160, 80, 1024]⟩ .f32 := fun i =>
  (∑ h : Fin 640, hidden enc dec W1 b1 (i 0) (i 1) (i 2) h * W2 (ix2 h (i 3))) + b2 (ix1 (i 3))

end Cert.Joint

end
-- ==== Proof.EntryArrays.lean ====
/-
  WHAT THE REGION FINDS IN THE ARRAYS ITS WINDOWS STAGE.
  Before the one kernel launch, nine host operations prepare the seven operand arrays from the six arguments: a change
  of float format of the encoder states, the decoder states and the second weight matrix (the identity on the extended
  reals); the two halves of the first weight matrix, each a slice of 640 rows followed by a change of format; and the
  two biases viewed as one-row matrices. Each operand array, as the region finds it, is named here as that function of
  the argument arrays at launch, and then read at an entry.
-/
import proofs.«107440_j2757369004491_1_alg».proof.Proof.Gen.KernelIdeal.Frame
import proofs.«107440_j2757369004491_1_alg».proof.Proof.Spec
import Idealize.ShloMosaic.Lib.StableHlo.Run
import Idealize.ShloMosaic.Lib.ValueLayout

noncomputable section

namespace Cert.Joint.Entry

open Cert.KernelIdeal Cert.KernelIdeal.Gen Idealize.ShloMosaic Idealize.ShloMosaic.TcCoe Idealize.SL.Sem
  Idealize.ShloMosaic.ValueIdx Cert.Joint

variable (m : (ℓ : Loc nD τ sig) → Buf (Elt Ideal) ℓ)

/-- The encoder states, re-formatted: the argument itself. -/
theorem V_enc (c : Dev nD) : (V m c main_v0 : S4x160x640.Idx → EReal) = m ((c : Thread nD τ).loc main_arg0) := by
  unfold V; after_results; rfl

/-- The decoder states, re-formatted: the argument itself. -/
theorem V_dec (c : Dev nD) : (V m c main_v1 : S4x80x640.Idx → EReal) = m ((c : Thread nD τ).loc main_arg1) := by
  unfold V; after_results; rfl

/-- The encoder half of the first weight matrix: rows 0 … 639 of the argument. -/
theorem V_w1e (c : Dev nD) : (V m c main_v3 : S640x640.Idx → EReal)
    = extractStridedSlice S640x640 ![0, 0] (m ((c : Thread nD τ).loc main_arg2)) slices_S1280x640_S640x640_0_0 := by
  unfold V; after_results; rfl

/-- The decoder half of the first weight matrix: rows 640 … 1279 of the argument. -/
theorem V_w1d (c : Dev nD) : (V m c main_v5 : S640x640.Idx → EReal)
    = extractStridedSlice S640x640 ![640, 0] (m ((c : Thread nD τ).loc main_arg2)) slices_S1280x640_S640x640_640_0 := by
  unfold V; after_results; rfl

/-- The first bias as a one-row matrix. -/
theorem V_b1 (c : Dev nD) : (V m c main_v7 : S1x640.Idx → EReal)
    = shapeCast S1x640 (m ((c : Thread nD τ).loc main_arg3)) shapeCasts_S640_S1x640 := by
  unfold V; after_results; rfl

/-- The second weight matrix, re-formatted: the argument itself. -/
theorem V_w2 (c : Dev nD) : (V m c main_v6 : S640x1024.Idx → EReal) = m ((c : Thread nD τ).loc main_arg4) := by
  unfold V; after_results; rfl

/-- The second bias as a one-row matrix. -/
theorem V_b2 (c : Dev nD) : (V m c main_v8 : S1x1024.Idx → EReal)
    = shapeCast S1x1024 (m ((c : Thread nD τ).loc main_arg5)) shapeCasts_S1024_S1x1024 := by
  unfold V; after_results; rfl

/-! ## Read at an entry -/

/-- Entry `(d, h)` of the encoder half is the argument's entry `(d, h)`. -/
theorem w1e_apply (c : Dev nD) (d h : Fin 640) :
    V m c main_v3 (ix2 d h) = m ((c : Thread nD τ).loc main_arg2) (ix2 (encRow d) h) := by
  rw [V_w1e]
  exact extractStridedSlice_apply _ _ _ _ _ (fun a => by
    match a with
    | ⟨0, _⟩ => show d.val = 0 + d.val; omega
    | ⟨1, _⟩ => show h.val = 0 + h.val; omega)

/-- Entry `(d, h)` of the decoder half is the argument's entry `(640 + d, h)`. -/
theorem w1d_apply (c : Dev nD) (d h : Fin 640) :
    V m c main_v5 (ix2 d h) = m ((c : Thread nD τ).loc main_arg2) (ix2 (decRow d) h) := by
  rw [V_w1d]
  exact extractStridedSlice_apply _ _ _ _ _ (fun a => by
    match a with
    | ⟨0, _⟩ => show 640 + d.val = 640 + d.val; rfl
    | ⟨1, _⟩ => show h.val = 0 + h.val; omega)

/-- Entry `(0, h)` of the first bias's row is the argument's entry `h`. -/
theorem b1_apply (c : Dev nD) (z : Fin 1) (h : Fin 640) :
    V m c main_v7 (ix2 z h) = m ((c : Thread nD τ).loc main_arg3) (ix1 h) := by
  rw [V_b1]; exact shapeCast_a_1a_apply _ _ z h

/-- Entry `(0, v)` of the second bias's row is the argument's entry `v`. -/
theorem b2_apply (c : Dev nD) (z : Fin 1) (v : Fin 1024) :
    V m c main_v8 (ix2 z v) = m ((c : Thread nD τ).loc main_arg5) (ix1 v) := by
  rw [V_b2]; exact shapeCast_a_1a_apply _ _ z v

end Cert.Joint.Entry

end
-- ==== Proof.Blocks.lean ====
/-
  FROM THE BLOCKS TO THE WHOLE RESULT ARRAY.
  The launch runs the body at the 20 points `(B, T)` of a `4 × 5` grid. At point `(B, T)` the body sees time steps
  `32 T … 32 T + 31` of batch element `B`'s encoder states, all 80 decoder positions of batch element `B`, and the
  weights and biases whole; it writes back block `(B, T)` of the result, lattice points `(B, 32 T + p, u)` for `p < 32`,
  `u < 80`, all 1024 logits of each. Entry `(0, p, u, v)` of what point `(B, T)` writes back is therefore the logit
  `(B, 32 T + p, u, v)` of the joint network of the ARGUMENT arrays, and since the 20 blocks tile the result array (time
  step `τ` lies in block `τ / 32`), the array ends holding the logits everywhere.
-/
import proofs.«107440_j2757369004491_1_alg».proof.Proof.Gen.KernelIdeal.Value
import proofs.«107440_j2757369004491_1_alg».proof.Proof.Payload
import proofs.«107440_j2757369004491_1_alg».proof.Proof.EntryArrays
import proofs.«107440_j2757369004491_1_alg».proof.Proof.Spec

set_option maxRecDepth 16384

noncomputable section

open scoped BigOperators

namespace Cert.Joint.Blocks

open Cert.KernelIdeal Cert.KernelIdeal.Gen Idealize.ShloMosaic Idealize.ShloMosaic.TcCoe Idealize.SL.Sem
  Idealize.ShloMosaic.ValueIdx Cert.Joint Cert.Joint.Payload Cert.Joint.Entry
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-! ## The index maps over the grid -/

/-- The result's block index at a grid point is `(B, T, 0, 0)` with `B ≤ 3`, `T ≤ 4`. -/
theorem out_index : ∀ t : Fin cfg0.N, win0_7.index t (0 : Fin 4) ≤ 3 ∧ win0_7.index t (1 : Fin 4) ≤ 4
    ∧ win0_7.index t (2 : Fin 4) = 0 ∧ win0_7.index t (3 : Fin 4) = 0 :=
  (by decide +kernel : ∀ t : Fin grid0.N, _)

/-- The encoder block moves with the result's block on both grid axes; the decoder block on the batch axis alone. -/
theorem state_index : ∀ t : Fin cfg0.N, win0_0.index t (0 : Fin 3) = win0_7.index t (0 : Fin 4)
    ∧ win0_0.index t (1 : Fin 3) = win0_7.index t (1 : Fin 4) ∧ win0_0.index t (2 : Fin 3) = 0
    ∧ win0_1.index t (0 : Fin 3) = win0_7.index t (0 : Fin 4) ∧ win0_1.index t (1 : Fin 3) = 0
    ∧ win0_1.index t (2 : Fin 3) = 0 :=
  (by decide +kernel : ∀ t : Fin grid0.N, _)

/-- The weights and biases are staged whole at every point. -/
theorem weight_index : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every block `(B, T)` of the result is some grid point's. -/
theorem index_onto : ∀ (B : Fin 4) (T : Fin 5), ∃ t : Fin cfg0.N, win0_7.index t = ![B.val, T.val, 0, 0] :=
  (by decide +kernel : ∀ (B : Fin 4) (T : Fin 5), ∃ t : Fin grid0.N, win0_7.index t = ![B.val, T.val, 0, 0])

/-! ## What a grid point writes back -/

/-- The batch element of grid point `t`. -/
def batchOf (t : Fin cfg0.N) : Fin 4 := ⟨win0_7.index t (0 : Fin 4), by have := (out_index t).1; omega⟩
/-- Time step `p` of grid point `t`'s block of 32. -/
def timeOf (t : Fin cfg0.N) (p : Fin 32) : Fin 160 :=
  ⟨win0_7.index t (1 : Fin 4) * 32 + p.val, by have := (out_index t).2.1; have := p.isLt; omega⟩

/-- Entry `(z, p, u, v)` of the result's block at `t` is the result's entry `(batch, time, u, v)`. -/
theorem out_emb (t : Fin cfg0.N) (z : Fin 1) (p : Fin 32) (u : Fin 80) (v : Fin 1024) :
    ((cfg0.win 7).blk t).view.emb (ix4 z p u v) = ix4 (batchOf t) (timeOf t p) u v := by
  obtain ⟨-, -, e2, e3⟩ := out_index t
  funext a; apply Fin.ext
  match a with
  | ⟨0, _⟩ => show win0_7.index t (0 : Fin 4) * 1 + 1 * z.val = win0_7.index t (0 : Fin 4); omega
  | ⟨1, _⟩ => show win0_7.index t (1 : Fin 4) * 32 + 1 * p.val = win0_7.index t (1 : Fin 4) * 32 + p.val; omega
  | ⟨2, _⟩ => show win0_7.index t (2 : Fin 4) * 80 + 1 * u.val = u.val; omega
  | ⟨3, _⟩ => show win0_7.index t (3 : Fin 4) * 1024 + 1 * v.val = v.val; omega

/-- The encoder block at `t`, entry `(z, p, d)`: the encoder argument at `(batch, time, d)`. -/
theorem enc_read (c : Dev nD) (t : Fin cfg0.N) (z : Fin 1) (p : Fin 32) (d : Fin 640) :
    iblk m c 0 t (ix3 z p d) = m ((c : Thread nD τ).loc main_arg0) (ix3 (batchOf t) (timeOf t p) d) := by
  obtain ⟨e0, e1, e2, -, -, -⟩ := state_index t
  show V m c main_v0 (((cfg0.win 0).blk t).view.emb (ix3 z p d)) = _
  rw [V_enc]
  refine congrArg (m ((c : Thread nD τ).loc main_arg0)) (funext fun a => Fin.ext ?_)
  match a with
  | ⟨0, _⟩ => show win0_0.index t (0 : Fin 3) * 1 + 1 * z.val = win0_7.index t (0 : Fin 4); omega
  | ⟨1, _⟩ => show win0_0.index t (1 : Fin 3) * 32 + 1 * p.val = win0_7.index t (1 : Fin 4) * 32 + p.val; omega
  | ⟨2, _⟩ => show win0_0.index t (2 : Fin 3) * 640 + 1 * d.val = d.val; omega

/-- The decoder block at `t`, entry `(z, u, d)`: the decoder argument at `(batch, u, d)`. -/
theorem dec_read (c : Dev nD) (t : Fin cfg0.N) (z : Fin 1) (u : Fin 80) (d : Fin 640) :
    iblk m c 1 t (ix3 z u d) = m ((c : Thread nD τ).loc main_arg1) (ix3 (batchOf t) u d) := by
  obtain ⟨-, -, -, e0, e1, e2⟩ := state_index t
  show V m c main_v1 (((cfg0.win 1).blk t).view.emb (ix3 z u d)) = _
  rw [V_dec]
  refine congrArg (m ((c : Thread nD τ).loc main_arg1)) (funext fun a => Fin.ext ?_)
  match a with
  | ⟨0, _⟩ => show win0_1.index t (0 : Fin 3) * 1 + 1 * z.val = win0_7.index t (0 : Fin 4); omega
  | ⟨1, _⟩ => show win0_1.index t (1 : Fin 3) * 80 + 1 * u.val = u.val; omega
  | ⟨2, _⟩ => show win0_1.index t (2 : Fin 3) * 640 + 1 * d.val = d.val; omega

/-- The encoder half of `W1` at `t`, entry `(d, h)`: the argument at `(d, h)`. -/
theorem w1e_read (c : Dev nD) (t : Fin cfg0.N) (d h : Fin 640) :
    iblk m c 2 t (ix2 d h) = m ((c : Thread nD τ).loc main_arg2) (ix2 (encRow d) h) := by
  obtain ⟨e0, e1, -⟩ := weight_index t
  show V m c main_v3 (((cfg0.win 2).blk t).view.emb (ix2 d h)) = _
  rw [← w1e_apply m c d h]
  refine congrArg (V m c main_v3) (funext fun a => Fin.ext ?_)
  match a with
  | ⟨0, _⟩ => show win0_2.index t (0 : Fin 2) * 640 + 1 * d.val = d.val; omega
  | ⟨1, _⟩ => show win0_2.index t (1 : Fin 2) * 640 + 1 * h.val = h.val; omega

/-- The decoder half of `W1` at `t`, entry `(d, h)`: the argument at `(640 + d, h)`. -/
theorem w1d_read (c : Dev nD) (t : Fin cfg0.N) (d h : Fin 640) :
    iblk m c 3 t (ix2 d h) = m ((c : Thread nD τ).loc main_arg2) (ix2 (decRow d) h) := by
  obtain ⟨-, -, e0, e1, -⟩ := weight_index t
  show V m c main_v5 (((cfg0.win 3).blk t).view.emb (ix2 d h)) = _
  rw [← w1d_apply m c d h]
  refine congrArg (V m c main_v5) (funext fun a => Fin.ext ?_)
  match a with
  | ⟨0, _⟩ => show win0_3.index t (0 : Fin 2) * 640 + 1 * d.val = d.val; omega
  | ⟨1, _⟩ => show win0_3.index t (1 : Fin 2) * 640 + 1 * h.val = h.val; omega

/-- The first bias at `t`, entry `(z, h)`: the argument at `h`. -/
theorem b1_read (c : Dev nD) (t : Fin cfg0.N) (z : Fin 1) (h : Fin 640) :
    iblk m c 4 t (ix2 z h) = m ((c : Thread nD τ).loc main_arg3) (ix1 h) := by
  obtain ⟨-, -, -, -, e0, e1, -⟩ := weight_index t
  show V m c main_v7 (((cfg0.win 4).blk t).view.emb (ix2 z h)) = _
  rw [← b1_apply m c z h]
  refine congrArg (V m c main_v7) (funext fun a => Fin.ext ?_)
  match a with
  | ⟨0, _⟩ => show win0_4.index t (0 : Fin 2) * 1 + 1 * z.val = z.val; omega
  | ⟨1, _⟩ => show win0_4.index t (1 : Fin 2) * 640 + 1 * h.val = h.val; omega

/-- The second weight matrix at `t`, entry `(h, v)`: the argument at `(h, v)`. -/
theorem w2_read (c : Dev nD) (t : Fin cfg0.N) (h : Fin 640) (v : Fin 1024) :
    iblk m c 5 t (ix2 h v) = m ((c : Thread nD τ).loc main_arg4) (ix2 h v) := by
  obtain ⟨-, -, -, -, -, -, e0, e1, -⟩ := weight_index t
  show V m c main_v6 (((cfg0.win 5).blk t).view.emb (ix2 h v)) = _
  rw [V_w2]
  refine congrArg (m ((c : Thread nD τ).loc main_arg4)) (funext fun a => Fin.ext ?_)
  match a with
  | ⟨0, _⟩ => show win0_5.index t (0 : Fin 2) * 640 + 1 * h.val = h.val; omega
  | ⟨1, _⟩ => show win0_5.index t (1 : Fin 2) * 1024 + 1 * v.val = v.val; omega

/-- The second bias at `t`, entry `(z, v)`: the argument at `v`. -/
theorem b2_read (c : Dev nD) (t : Fin cfg0.N) (z : Fin 1) (v : Fin 1024) :
    iblk m c 6 t (ix2 z v) = m ((c : Thread nD τ).loc main_arg5) (ix1 v) := by
  obtain ⟨-, -, -, -, -, -, -, -, e0, e1⟩ := weight_index t
  show V m c main_v8 (((cfg0.win 6).blk t).view.emb (ix2 z v)) = _
  rw [← b2_apply m c z v]
  refine congrArg (V m c main_v8) (funext fun a => Fin.ext ?_)
  match a with
  | ⟨0, _⟩ => show win0_6.index t (0 : Fin 2) * 1 + 1 * z.val = z.val; omega
  | ⟨1, _⟩ => show win0_6.index t (1 : Fin 2) * 1024 + 1 * v.val = v.val; omega

/-- The joint network of the argument arrays at launch, on core `c`. -/
abbrev result (c : Dev nD) : S4x160x80x1024.Idx → EReal :=
  logits (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- WHAT POINT `t` WRITES BACK is block `t` of the joint network of the argument arrays. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero zero4]
  simp only [View.ld_unit_zero (S := S1x32x640) zero3, View.ld_unit_zero (S := S1x80x640) zero3,
    View.ld_unit_zero (S := S640x640) zero2, View.ld_unit_zero (S := S1x640) zero2,
    View.ld_unit_zero (S := S640x1024) zero2, View.ld_unit_zero (S := S1x1024) zero2]
  refine funext fun (y : S1x32x80x1024.Idx) => ?_
  obtain ⟨z, p, u, v, rfl⟩ : ∃ (z : Fin 1) (p : Fin 32) (u : Fin 80) (v : Fin 1024), y = ix4 z p u v :=
    ⟨y 0, y 1, y 2, y 3, eq_ix4 y⟩
  show k0_pay1 (iblk m c 0 t) (iblk m c 1 t) (iblk m c 2 t) (iblk m c 3 t) (iblk m c 4 t) (iblk m c 5 t) (iblk m c 6 t)
      (ix4 z p u v) = result m c (((cfg0.win 7).blk t).view.emb (ix4 z p u v))
  rw [out_emb]
  refine (payload_apply (iblk m c 0 t) (iblk m c 1 t) (iblk m c 2 t) (iblk m c 3 t) (iblk m c 4 t) (iblk m c 5 t)
    (iblk m c 6 t) z p u v).trans ?_
  simp only [enc_read, dec_read, w1e_read, w1d_read, b1_read, w2_read, b2_read]
  rfl

/-! ## The blocks tile the result -/

/-- An index of the result is in point `t`'s block iff each coordinate is in the block's range on its axis. -/
theorem mem_blk (t : Fin cfg0.N) (i : S4x160x80x1024.Idx) :
    i ∈ ((cfg0.win 7).blk t).view.set ↔ ∀ a : Fin 4, win0_7.index t a * S1x32x80x1024.size a ≤ (i a).val
      ∧ (i a).val < win0_7.index t a * S1x32x80x1024.size a + S1x32x80x1024.size a := by
  show i ∈ ((View.whole main_v9).slice (win0_7.rect t)).set ↔ _
  rw [View.set_slice_whole, Rect.mem_set_unit]
  exact Iff.rfl

/-- Every entry of the result lies in the block of the point with its batch element and its time step's block of 32. -/
theorem cover (i : S4x160x80x1024.Idx) :
    ∃ t : Fin cfg0.N, (cfg0.win 7).flush t = true ∧ i ∈ ((cfg0.win 7).blk t).view.set := by
  have hi0 : (i 0).val < 4 := (i 0).isLt
  have hi1 : (i 1).val < 160 := (i 1).isLt
  have hi2 : (i 2).val < 80 := (i 2).isLt
  have hi3 : (i 3).val < 1024 := (i 3).isLt
  obtain ⟨t, ht⟩ := index_onto ⟨(i 0).val, hi0⟩ ⟨(i 1).val / 32, by omega⟩
  have q0 : win0_7.index t (0 : Fin 4) = (i 0).val := congrFun ht 0
  have q1 : win0_7.index t (1 : Fin 4) = (i 1).val / 32 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 32 ≤ (i 1).val ∧ (i 1).val < win0_7.index t (1 : Fin 4) * 32 + 32; omega
  | ⟨2, _⟩ => show win0_7.index t (2 : Fin 4) * 80 ≤ (i 2).val ∧ (i 2).val < win0_7.index t (2 : Fin 4) * 80 + 80; omega
  | ⟨3, _⟩ => show win0_7.index t (3 : Fin 4) * 1024 ≤ (i 3).val ∧ (i 3).val < win0_7.index t (3 : Fin 4) * 1024 + 1024; omega

/-- THE RESULT ARRAY after the run is the joint network of the argument arrays. -/
theorem final (c : Dev nD) : (dats m 0 c).arrAt 7 cfg0.N = result m c :=
  (dats m 0 c).arrAt_eq_of_cover 7 (result m c) (fun t _ => flushed_eq m c t) (cover)

/-- The kernel's run, read: the result array ends at the joint network of the arguments, which end unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.Joint.Blocks

end
-- ==== Proof.RefIsSpec.lean ====
/-
  THE REFERENCE COMPUTES THE JOINT NETWORK.
  The reference's run ends at a composed term of seventeen host operations. Read one operation at a time at an index,
  the two `dot_general`s on the halves of `W1` are the two projections, the chains of `broadcast_in_dim` only choose
  which coordinates of the lattice index `(b, t, u, h)` each summand reads (the encoder projection ignores `u`, the
  decoder projection ignores `t`, the bias reads `h` alone), `tanh` is the extended reals' on both sides, and the last
  `dot_general` with the bias added is the logit. What is written here are the coordinate identities between the
  operations' composed index functions and the specification's indices.
-/
import proofs.«107440_j2757369004491_1_alg».proof.Proof.Gen.ReferenceIdeal.Read
import proofs.«107440_j2757369004491_1_alg».proof.Proof.Spec

noncomputable section

open scoped BigOperators

namespace Cert.Joint.Ref

open Cert.ReferenceIdeal Cert.ReferenceIdeal.Read Idealize.ShloMosaic Idealize.ShloMosaic.ValueIdx Cert.Joint

/-! ## The composed index functions, by coordinates -/

/-- The encoder state the first `dot_general` reads for lattice index `j` and contracted coordinate `k`. -/
theorem enc_idx (j : S4x160x80x640.Idx) (k : Fin 640) :
    lidx_main_v2 (idx_main_v4 (idx_main_v6 j)) k = ix3 (j 0) (j 1) k :=
  funext fun a => Fin.ext (by match a with | ⟨0, _⟩ => rfl | ⟨1, _⟩ => rfl | ⟨2, _⟩ => rfl)

/-- The row of `W1` it is multiplied by: row `k` of the upper half. -/
theorem encW_idx (j : S4x160x80x640.Idx) (k : Fin 640) :
    idx_main_v0 (ridx_main_v2 (idx_main_v4 (idx_main_v6 j)) k) = ix2 (encRow k) (j 3) :=
  funext fun a => Fin.ext (by match a with | ⟨0, _⟩ => rfl | ⟨1, _⟩ => rfl)

/-- The decoder state the second `dot_general` reads for lattice index `j` and contracted coordinate `k`. -/
theorem dec_idx (j : S4x160x80x640.Idx) (k : Fin 640) :
    lidx_main_v3 (idx_main_v5 (idx_main_v7 j)) k = ix3 (j 0) (j 2) k :=
  funext fun a => Fin.ext (by match a with | ⟨0, _⟩ => rfl | ⟨1, _⟩ => rfl | ⟨2, _⟩ => rfl)

/-- The row of `W1` it is multiplied by: row `640 + k`, in the lower half. -/
theorem decW_idx (j : S4x160x80x640.Idx) (k : Fin 640) :
    idx_main_v1 (ridx_main_v3 (idx_main_v5 (idx_main_v7 j)) k) = ix2 (decRow k) (j 3) :=
  funext fun a => Fin.ext (by match a with | ⟨0, _⟩ => rfl | ⟨1, _⟩ => rfl)

/-- The first bias is read at the hidden unit alone. -/
theorem b1_idx (j : S4x160x80x640.Idx) : idx_main_v9 (idx_main_v10 j) = ix1 (j 3) :=
  funext fun a => Fin.ext (by match a with | ⟨0, _⟩ => rfl)

/-- The second weight matrix is read at the contracted hidden unit and the logit's vocabulary coordinate. -/
theorem w2_idx (i : S4x160x80x1024.Idx) (k : Fin 640) : ridx_main_v13 i k = ix2 k (i 3) :=
  funext fun a => Fin.ext (by match a with | ⟨0, _⟩ => rfl | ⟨1, _⟩ => rfl)

/-- The second bias is read at the vocabulary coordinate alone. -/
theorem b2_idx (i : S4x160x80x1024.Idx) : idx_main_v14 (idx_main_v15 i) = ix1 (i 3) :=
  funext fun a => Fin.ext (by match a with | ⟨0, _⟩ => rfl)

/-! ## The stages -/

/-- The reference's `tanh` stage at lattice index `j` is the specification's hidden activation at `j`'s coordinates. -/
theorem hidden_stage (x0 : FVec Ideal S4x160x640 .f32) (x1 : FVec Ideal S4x80x640 .f32) (x2 : FVec Ideal S1280x640 .f32)
    (x3 : FVec Ideal S640 .f32) (j : S4x160x80x640.Idx) :
    val_main_v12 (F := Ideal) x0 x1 x2 x3 j = hidden x0 x1 x2 x3 (j 0) (j 1) (j 2) (j 3) := by
  rw [val_main_v12_apply, val_main_v11_apply, val_main_v8_apply, val_main_v6_apply, val_main_v4_apply,
    val_main_v2_apply, val_main_v7_apply, val_main_v5_apply, val_main_v3_apply, val_main_v10_apply, val_main_v9_apply]
  simp only [val_main_v0_apply, val_main_v1_apply, enc_idx, encW_idx, dec_idx, decW_idx, b1_idx]
  rfl

/-- The reference's result is the logits of its arguments. -/
theorem result_eq (x0 : FVec Ideal S4x160x640 .f32) (x1 : FVec Ideal S4x80x640 .f32) (x2 : FVec Ideal S1280x640 .f32)
    (x3 : FVec Ideal S640 .f32) (x4 : FVec Ideal S640x1024 .f32) (x5 : FVec Ideal S1024 .f32) :
    val_main_v16 (F := Ideal) x0 x1 x2 x3 x4 x5 = logits x0 x1 x2 x3 x4 x5 := by
  funext i
  rw [val_main_v16_apply, val_main_v13_apply, val_main_v15_apply, val_main_v14_apply]
  simp only [hidden_stage, w2_idx, b2_idx]
  rfl

end Cert.Joint.Ref

end
-- ==== Proof.lean ====
/-
  A fused transducer joint network against its plain reference, on the extended reals.

  Both programs take encoder states `enc[b, t, d]`, decoder states `dec[b, u, d]`, a first weight matrix `W1` whose upper
  640 rows multiply the encoder state and lower 640 rows the decoder state, a bias `b1`, a second weight matrix `W2` and a
  bias `b2`, and return

      logits[b, t, u, v] = Σ_h tanh (Σ_d enc[b, t, d] · W1[d, h] + Σ_d dec[b, u, d] · W1[640 + d, h] + b1[h]) · W2[h, v] + b2[v].

  The kernel computes it block by block — 32 time steps of one batch element per grid point, the 32 × 80 lattice
  flattened to 2560 rows for the last product — after narrowing its matrix operands to a shorter float format; the
  reference computes it with three whole contractions and broadcasts. On the extended reals a change of float format
  is the identity, a matrix product into a zero accumulator is the plain sum of products, and `tanh` is one function in
  both programs, so the two results are the same sums of the same terms grouped the same way: no law beyond
  re-indexing finite sums is used, and the precondition (finite inputs) is never opened.

  The modules: `Spec` states the function; `RefIsSpec` reads the reference's run as it; `Matmuls`, `Payload` read the
  body's arithmetic at one entry of its output block; `EntryArrays` names the operand arrays the host operations
  prepare; `Blocks` shows each grid point writes back its block of the function of the ARGUMENTS and that the blocks
  tile the result. The three frames are the generated ones (the reference's its generated run with the result
  dropped); the idealization's ledger is empty.
-/
import proofs.«107440_j2757369004491_1_alg».proof.Defs
import proofs.«107440_j2757369004491_1_alg».proof.Proof.Gen.Kernel
import proofs.«107440_j2757369004491_1_alg».proof.Proof.Gen.Kernel.Skeleton
import proofs.«107440_j2757369004491_1_alg».proof.Proof.Gen.Kernel.Launch
import proofs.«107440_j2757369004491_1_alg».proof.Proof.Gen.Kernel.Points
import proofs.«107440_j2757369004491_1_alg».proof.Proof.Gen.Kernel.Frame
import proofs.«107440_j2757369004491_1_alg».proof.Proof.Gen.KernelIdeal
import proofs.«107440_j2757369004491_1_alg».proof.Proof.Gen.KernelIdeal.Skeleton
import proofs.«107440_j2757369004491_1_alg».proof.Proof.Gen.KernelIdeal.Launch
import proofs.«107440_j2757369004491_1_alg».proof.Proof.Gen.KernelIdeal.Points
import proofs.«107440_j2757369004491_1_alg».proof.Proof.Gen.KernelIdeal.Frame
import proofs.«107440_j2757369004491_1_alg».proof.Proof.Gen.ReferenceIdeal
import proofs.«107440_j2757369004491_1_alg».proof.Proof.Gen.Pre_finite_inputs
import proofs.«107440_j2757369004491_1_alg».proof.Proof.Gen.KernelIdeal.Value
import proofs.«107440_j2757369004491_1_alg».proof.Proof.Gen.ReferenceIdeal.Run
import proofs.«107440_j2757369004491_1_alg».proof.Proof.Gen.ReferenceIdeal.Read
import proofs.«107440_j2757369004491_1_alg».proof.Proof.Blocks
import proofs.«107440_j2757369004491_1_alg».proof.Proof.RefIsSpec
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the six arguments both programs end with the joint network's logits of those
    arguments in their result arrays: the kernel's blocks tile the result with the logits (`Blocks.run`), and the
    reference's composed term is the same function (`Ref.result_eq`). -/
theorem algebraic : Cert.algebraic_KernelIdeal_ReferenceIdeal := by
  intro m ρ m' ρ' _ hagree
  refine ⟨fun c => Cert.Joint.Blocks.result m c, Cert.Joint.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Joint.Ref.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
